-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S2x1024x1024 : Shape := ⟨3, ![2, 1024, 1024]⟩
abbrev S256x1024 : Shape := ⟨2, ![256, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 17
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2x1024x1024, .f32⟩
  | .hbm, ⟨3, _⟩ => ⟨S2x1024x1024, .f32⟩
  | .hbm, ⟨4, _⟩ => ⟨S1x1024x1024, .f32⟩
  | .hbm, ⟨5, _⟩ => ⟨S1024x1024, .f32⟩
  | .hbm, ⟨6, _⟩ => ⟨S1x1024x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1024x1024, .f32⟩
  | .hbm, ⟨11, _⟩ => ⟨S1x1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  slices_S2x1024x1024_S1x1024x1024_0_0_0 : S2x1024x1024.Slices ![0, 0, 0] S1x1024x1024
  slices_S2x1024x1024_S1x1024x1024_1_0_0 : S2x1024x1024.Slices ![1, 0, 0] S1x1024x1024
  reducesTo_S1024x1024_S_d0_1 : S1024x1024.ReducesTo [0, 1] S_
  h_S_ : 0 < S_.numel
  dot_S256x1024_S256x1024_S1024x1024_0_0_1_1_n_n_wf : DotDims.WF S256x1024 S256x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S2x1024x1024.size a
  hwx0_2 : ∀ i : grid0.Coords, EltTy.bits .f32 = 32 ∨ (Rect.block (s := S2x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S2x1024x1024.size a
  hwx0_3 : ∀ i : grid0.Coords, EltTy.bits .f32 = 32 ∨ (Rect.block (s := S2x1024x1024) S1x1024x1024.size (cc0_transform_3 i) (hinb0_3 i)).WholeWords (EltTy.packing .f32)

variable [Facts₀]

def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S8192x8192_S_d0_1 : S8192x8192.ReducesTo [0, 1] S_
  h_S_ : 0 < S_.numel
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.Pieces.lean ====
/-
  What each control case of the Gram body leaves behind, as pure functions of what it loads.

  The body keeps two running Gram accumulators (one for each input) in scratch memory.  At the first
  step of a core's reduction it zeroes them and adds the step's block product; at the later steps it adds the
  block product to what the previous step left; at the last step it also copies both accumulators to the two
  output blocks.  Each lemma below says that the contents the run found for one buffer in one case are the
  corresponding payload of the body's arithmetic, applied to the loaded input block and to the accumulator the
  step started from (the all-zero block at a first step).
-/
import proofs.«177869_j2070174236952_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step, X accumulator: the zero block plus the block product of the X block. -/
theorem sout_A_0 (c : Dev nD) (i : grid0.Coords) (a2 : Memref sig .tc .vmem S256x1024 .f32) (h2 : a2.IsWhole) (a3 : Memref sig .tc .vmem S256x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S256x1024 .f32) :
    sout0_A_0 c i a2 h2 a3 h3 a4 h4 a5 h5 a6 h6 a7 h7 hc0 hc1 x0 x1 = k0_pay3 x0 k0_pay1 := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, h6.read_unread, h7.read_unread, View.ld_unit_zero (S := S256x1024) hz2, View.ld_unit_zero (S := S1024x1024) hz2]

/-- First step, Y accumulator: the zero block plus the block product of the Y block. -/
theorem sout_A_1 (c : Dev nD) (i : grid0.Coords) (a2 : Memref sig .tc .vmem S256x1024 .f32) (h2 : a2.IsWhole) (a3 : Memref sig .tc .vmem S256x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S256x1024 .f32) :
    sout0_A_1 c i a2 h2 a3 h3 a4 h4 a5 h5 a6 h6 a7 h7 hc0 hc1 x0 x1 = k0_pay4 x1 k0_pay2 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, h6.read_unread, h7.read_unread, View.ld_unit_zero (S := S256x1024) hz2, View.ld_unit_zero (S := S1024x1024) hz2]

/-- Middle step, X accumulator: the previous accumulator plus the block product of the X block. -/
theorem sout_B_0 (c : Dev nD) (i : grid0.Coords) (a2 : Memref sig .tc .vmem S256x1024 .f32) (h2 : a2.IsWhole) (a3 : Memref sig .tc .vmem S256x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S256x1024 .f32) (xs0 xs1 : Vec F S1024x1024 .f32) :
    sout0_B_0 c i a2 h2 a3 h3 a4 h4 a5 h5 a6 h6 a7 h7 hc0 hc1 x0 x1 xs0 xs1 = k0_pay3 x0 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, h7.read_unread, View.ld_unit_zero (S := S256x1024) hz2, View.ld_unit_zero (S := S1024x1024) hz2]

/-- Middle step, Y accumulator. -/
theorem sout_B_1 (c : Dev nD) (i : grid0.Coords) (a2 : Memref sig .tc .vmem S256x1024 .f32) (h2 : a2.IsWhole) (a3 : Memref sig .tc .vmem S256x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S256x1024 .f32) (xs0 xs1 : Vec F S1024x1024 .f32) :
    sout0_B_1 c i a2 h2 a3 h3 a4 h4 a5 h5 a6 h6 a7 h7 hc0 hc1 x0 x1 xs0 xs1 = k0_pay4 x1 xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero hz2]
  simp only [View.readAt_eq_ld, h2.read_unread, h3.read_unread, h6.read_unread, h7.read_unread, View.ld_unit_zero (S := S256x1024) hz2, View.ld_unit_zero (S := S1024x1024) hz2]

/-- Last step, X accumulator: as at a middle step. -/
theorem sout_C_0 (c : Dev nD) (i : grid0.Coords) (a2 : Memref sig .tc .vmem S256x1024 .f32) (h2 : a2.IsWhole) (a3 : Memref sig .tc .vmem S256x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S256x1024 .f32) (xs0 xs1 : Vec F S1024x1024 .f32) :
    sout0_C_0 c i a2 h2 a3 h3 a4 h4 a5 h5 a6 h6 a7 h7 hc0 hc1 x0 x1 xs0 xs1 = k0_pay3 x0 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread, View.ld_unit_zero (S := S256x1024) hz2, View.ld_unit_zero (S := S1024x1024) hz2]

/-- Last step, Y accumulator. -/
theorem sout_C_1 (c : Dev nD) (i : grid0.Coords) (a2 : Memref sig .tc .vmem S256x1024 .f32) (h2 : a2.IsWhole) (a3 : Memref sig .tc .vmem S256x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S256x1024 .f32) (xs0 xs1 : Vec F S1024x1024 .f32) :
    sout0_C_1 c i a2 h2 a3 h3 a4 h4 a5 h5 a6 h6 a7 h7 hc0 hc1 x0 x1 xs0 xs1 = k0_pay4 x1 xs1 := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero hz2]
  simp only [View.readAt_eq_ld, h2.read_unread, h3.read_unread, h6.read_unread, h7.read_unread, View.ld_unit_zero (S := S256x1024) hz2, View.ld_unit_zero (S := S1024x1024) hz2]

/-- Last step, first output block: the updated X accumulator, with a leading unit axis. -/
theorem out_C_2 (c : Dev nD) (i : grid0.Coords) (a2 : Memref sig .tc .vmem S256x1024 .f32) (h2 : a2.IsWhole) (a3 : Memref sig .tc .vmem S256x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S256x1024 .f32) (xs0 xs1 : Vec F S1024x1024 .f32) :
    out0_C_2 c i a2 h2 a3 h3 a4 h4 a5 h5 a6 h6 a7 h7 hc0 hc1 x0 x1 xs0 xs1 = k0_pay5 (k0_pay3 x0 xs0) := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S1024x1024) _ hz2]
  simp only [View.readAt_eq_ld, h2.read_unread, h3.read_unread, h6.read_unread, h7.read_unread, View.ld_unit_zero (S := S256x1024) hz2, View.ld_unit_zero (S := S1024x1024) hz2]

/-- Last step, second output block: the updated Y accumulator, with a leading unit axis. -/
theorem out_C_3 (c : Dev nD) (i : grid0.Coords) (a2 : Memref sig .tc .vmem S256x1024 .f32) (h2 : a2.IsWhole) (a3 : Memref sig .tc .vmem S256x1024 .f32) (h3 : a3.IsWhole) (a4 : Memref sig .tc .vmem S1x1024x1024 .f32) (h4 : a4.IsWhole) (a5 : Memref sig .tc .vmem S1x1024x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S256x1024 .f32) (xs0 xs1 : Vec F S1024x1024 .f32) :
    out0_C_3 c i a2 h2 a3 h3 a4 h4 a5 h5 a6 h6 a7 h7 hc0 hc1 x0 x1 xs0 xs1 = k0_pay6 (k0_pay4 x1 xs1) := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S1024x1024) _ hz2]
  simp only [View.readAt_eq_ld, h2.read_unread, h3.read_unread, h6.read_unread, h7.read_unread, View.ld_unit_zero (S := S256x1024) hz2, View.ld_unit_zero (S := S1024x1024) hz2]

end Cert.KernelIdeal.Pieces

end
-- ==== Proof.Chain.lean ====
/-
  The running Gram accumulators over the grid.

  The grid has 2 x 16 points, visited in order; point n works on rows 256 n .. 256 n + 255 of X and of Y.  Within
  each run of 16 points the X accumulator starts from zero at the run's first point and at every point gains the
  block product of the point's X block; the Y accumulator likewise.  At a run's last point both accumulators are
  copied (with a leading unit axis) into the point's two output blocks.  `accX` and `accY` are that recursion
  written over the body's payloads, and the theorems say the contents the frame run records after each point are
  these.
-/
import proofs.«177869_j2070174236952_2_alg».proof.Proof.Pieces

set_option maxRecDepth 16384

noncomputable section

open Idealize.ShloMosaic Idealize.ShloMosaic.TcCoe Idealize.SL.Sem

namespace Cert.KernelIdeal.Chain

open Cert.KernelIdeal Cert.KernelIdeal.Gen

variable {F : FTy → Type} [FloatOps F]
variable (m : (ℓ : Loc nD τ sig) → Buf (Elt F) ℓ)

/-- The X block of point `t`, as a 256 x 1024 vector. -/
abbrev xblk (c : Dev nD) (t : Fin cfg0.N) : Vec F S256x1024 .f32 := iblk m c 0 t
/-- The Y block of point `t`. -/
abbrev yblk (c : Dev nD) (t : Fin cfg0.N) : Vec F S256x1024 .f32 := iblk m c 1 t

/-- The X accumulator after point `n`. -/
def accX (c : Dev nD) : (n : ℕ) → n < cfg0.N → Vec F S1024x1024 .f32
  | 0, h => k0_pay3 (xblk m c ⟨0, h⟩) k0_pay1
  | n + 1, h =>
    if (n + 1) % 16 = 0 then k0_pay3 (xblk m c ⟨n + 1, h⟩) k0_pay1
    else k0_pay3 (xblk m c ⟨n + 1, h⟩) (accX c n (Nat.lt_of_succ_lt h))

/-- The Y accumulator after point `n`. -/
def accY (c : Dev nD) : (n : ℕ) → n < cfg0.N → Vec F S1024x1024 .f32
  | 0, h => k0_pay4 (yblk m c ⟨0, h⟩) k0_pay2
  | n + 1, h =>
    if (n + 1) % 16 = 0 then k0_pay4 (yblk m c ⟨n + 1, h⟩) k0_pay2
    else k0_pay4 (yblk m c ⟨n + 1, h⟩) (accY c n (Nat.lt_of_succ_lt h))

theorem accX_succ_first (c : Dev nD) (n : ℕ) (h : n + 1 < cfg0.N) (h0 : (n + 1) % 16 = 0) :
    accX m c (n + 1) h = k0_pay3 (xblk m c ⟨n + 1, h⟩) k0_pay1 := by
  rw [accX, if_pos h0]

theorem accX_succ_later (c : Dev nD) (n : ℕ) (h : n + 1 < cfg0.N) (h0 : ¬(n + 1) % 16 = 0) :
    accX m c (n + 1) h = k0_pay3 (xblk m c ⟨n + 1, h⟩) (accX m c n (Nat.lt_of_succ_lt h)) := by
  rw [accX, if_neg h0]

theorem accY_succ_first (c : Dev nD) (n : ℕ) (h : n + 1 < cfg0.N) (h0 : (n + 1) % 16 = 0) :
    accY m c (n + 1) h = k0_pay4 (yblk m c ⟨n + 1, h⟩) k0_pay2 := by
  rw [accY, if_pos h0]

theorem accY_succ_later (c : Dev nD) (n : ℕ) (h : n + 1 < cfg0.N) (h0 : ¬(n + 1) % 16 = 0) :
    accY m c (n + 1) h = k0_pay4 (yblk m c ⟨n + 1, h⟩) (accY m c n (Nat.lt_of_succ_lt h)) := by
  rw [accY, if_neg h0]

theorem accX_zero (c : Dev nD) (h : 0 < cfg0.N) : accX m c 0 h = k0_pay3 (xblk m c ⟨0, h⟩) k0_pay1 := by
  rw [accX]

theorem accY_zero (c : Dev nD) (h : 0 < cfg0.N) : accY m c 0 h = k0_pay4 (yblk m c ⟨0, h⟩) k0_pay2 := by
  rw [accY]

/-- After every point the two scratch accumulators hold `accX` and `accY`. -/
theorem scratch_eq (c : Dev nD) : ∀ (n : ℕ) (h : n < cfg0.N),
    (outsAt0 m c n h).2.2.1 = accX m c n h ∧ (outsAt0 m c n h).2.2.2 = accY m c n h
  | 0, h => by
    have h0 : (⟨0, h⟩ : Fin cfg0.N).val % 16 = 0 := rfl
    have h1 : ¬(⟨0, h⟩ : Fin cfg0.N).val % 16 = 15 := by show ¬0 % 16 = 15; decide
    rw [accX_zero, accY_zero, show outsAt0 m c 0 h = _ from outsAt0_A m c ⟨0, h⟩ h0 h1]
    dsimp only
    exact ⟨Pieces.sout_A_0 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩),
      Pieces.sout_A_1 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr h0) (fun hh => h1 ((hcond0_1 ⟨0, h⟩).mp hh)) (iblk m c 0 ⟨0, h⟩) (iblk m c 1 ⟨0, h⟩)⟩
  | n + 1, h => by
    have ih := scratch_eq c n (Nat.lt_of_succ_lt h)
    by_cases h0 : (n + 1) % 16 = 0
    · have h1 : ¬(n + 1) % 16 = 15 := by omega
      rw [accX_succ_first m c n h h0, accY_succ_first m c n h h0,
        show outsAt0 m c (n + 1) h = _ from outsAt0_A m c ⟨n + 1, h⟩ h0 h1]
      dsimp only
      exact ⟨Pieces.sout_A_0 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩),
        Pieces.sout_A_1 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩)⟩
    · rw [accX_succ_later m c n h h0, accY_succ_later m c n h h0, ← ih.1, ← ih.2]
      by_cases h1 : (n + 1) % 16 = 15
      · rw [show outsAt0 m c (n + 1) h = _ from outsAt0_C m c ⟨n + 1, h⟩ h0 h1]
        dsimp only
        exact ⟨Pieces.sout_C_0 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.1 (outsAt0 m c n (Nat.lt_of_succ_lt h)).2.2.2,
          Pieces.sout_C_1 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.1 (outsAt0 m c n (Nat.lt_of_succ_lt h)).2.2.2⟩
      · rw [show outsAt0 m c (n + 1) h = _ from outsAt0_B m c ⟨n + 1, h⟩ h0 h1]
        dsimp only
        exact ⟨Pieces.sout_B_0 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.1 (outsAt0 m c n (Nat.lt_of_succ_lt h)).2.2.2,
          Pieces.sout_B_1 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.1 (outsAt0 m c n (Nat.lt_of_succ_lt h)).2.2.2⟩

/-- At a run's last point the two output blocks are the two accumulators, a unit axis added. -/
theorem out_eq (c : Dev nD) : ∀ (n : ℕ) (h : n < cfg0.N), n % 16 = 15 →
    (outsAt0 m c n h).1 = k0_pay5 (accX m c n h) ∧ (outsAt0 m c n h).2.1 = k0_pay6 (accY m c n h)
  | 0, _, h15 => absurd h15 (by decide)
  | n + 1, h, h15 => by
    have ih := scratch_eq m c n (Nat.lt_of_succ_lt h)
    have h0 : ¬(n + 1) % 16 = 0 := by omega
    rw [accX_succ_later m c n h h0, accY_succ_later m c n h h0, ← ih.1, ← ih.2,
      show outsAt0 m c (n + 1) h = _ from outsAt0_C m c ⟨n + 1, h⟩ h0 h15]
    dsimp only
    exact ⟨Pieces.out_C_2 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h15) (iblk m c 0 ⟨n + 1, h⟩) (iblk m c 1 ⟨n + 1, h⟩) (outsAt0 m c n (Nat.lt_of_succ_lt h)).2.2.1 (outsAt0 m c n (Nat.lt_of_succ_lt h)).2.2.2,
      Pieces.out_C_3 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h15) (iblk m c 0 ⟨n + 1, h⟩) (iblk m c 1 ⟨n + 1, h⟩) (outsAt0 m c n (Nat.lt_of_succ_lt h)).2.2.1 (outsAt0 m c n (Nat.lt_of_succ_lt h)).2.2.2⟩

theorem accX_congr (c : Dev nD) {n n' : ℕ} (e : n = n') (h : n < cfg0.N) (h' : n' < cfg0.N) :
    accX m c n h = accX m c n' h' := by subst e; rfl

theorem accY_congr (c : Dev nD) {n n' : ℕ} (e : n = n') (h : n < cfg0.N) (h' : n' < cfg0.N) :
    accY m c n h = accY m c n' h' := by subst e; rfl

end Cert.KernelIdeal.Chain

end
-- ==== Proof.Blocks.lean ====
/-
  From the grid's blocks to whole arrays.

  Point t reads rows 256 t .. 256 t + 255 of X and of Y (all 1024 columns).  The two outputs have shape
  2 x 1024 x 1024; point t's output block is slab t / 16, and it is written back at the last point of each run of
  16, that is at points 15 and 31, which between them cover both slabs.  So after the region the first output holds,
  in slab q, the X accumulator after point 16 q + 15, and the second output the Y accumulator after that point.
-/
import proofs.«177869_j2070174236952_2_alg».proof.Proof.Chain
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Chain

variable {F : FTy → Type} [FloatOps F]
variable (m : (ℓ : Loc nD τ sig) → Buf (Elt F) ℓ)

/-- The printed index maps over the grid: the inputs' row block is the point's number, the outputs' slab its run. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- Entry (r, a) of point t's X block is X at row 256 t + r, column a. -/
theorem xblk_apply (c : Dev nD) (t : Fin cfg0.N) (r : Fin 256) (a : Fin 1024) (hr : t.val * 256 + r.val < 8192) :
    xblk m c t (ix2 r a) = m ((c : Thread nD τ).loc main_arg0) (ix2 ⟨t.val * 256 + r.val, hr⟩ a) := by
  obtain ⟨e0, e1, -⟩ := idx_facts t
  show iblk m c 0 t (ix2 r a) = _
  unfold iblk
  rw [View.read_apply]
  show V m c main_arg0 _ = m ((c : Thread nD τ).loc main_arg0) _
  rw [V_main_arg0]
  refine congrArg (m ((c : Thread nD τ).loc main_arg0)) (funext fun d => Fin.ext ?_)
  match d with
  | ⟨0, _⟩ => show win0_0.index t (0 : Fin 2) * 256 + 1 * r.val = t.val * 256 + r.val; rw [e0]; omega
  | ⟨1, _⟩ => show win0_0.index t (1 : Fin 2) * 1024 + 1 * a.val = a.val; rw [e1]; omega

/-- Entry (r, a) of point t's Y block is Y at row 256 t + r, column a. -/
theorem yblk_apply (c : Dev nD) (t : Fin cfg0.N) (r : Fin 256) (a : Fin 1024) (hr : t.val * 256 + r.val < 8192) :
    yblk m c t (ix2 r a) = m ((c : Thread nD τ).loc main_arg1) (ix2 ⟨t.val * 256 + r.val, hr⟩ a) := by
  obtain ⟨-, -, e0, e1, -⟩ := idx_facts t
  show iblk m c 1 t (ix2 r a) = _
  unfold iblk
  rw [View.read_apply]
  show V m c main_arg1 _ = m ((c : Thread nD τ).loc main_arg1) _
  rw [V_main_arg1]
  refine congrArg (m ((c : Thread nD τ).loc main_arg1)) (funext fun d => Fin.ext ?_)
  match d with
  | ⟨0, _⟩ => show win0_1.index t (0 : Fin 2) * 256 + 1 * r.val = t.val * 256 + r.val; rw [e0]; omega
  | ⟨1, _⟩ => show win0_1.index t (1 : Fin 2) * 1024 + 1 * a.val = a.val; rw [e1]; omega

/-! ## The two output arrays after the region -/

theorem last_lt (q : ℕ) (hq : q < 2) : 16 * q + 15 < cfg0.N := by
  have hN : cfg0.N = 32 := N_0
  omega

/-- Entry (q, a, b) of the first output: the X accumulator after point 16 q + 15, at (a, b). -/
def gxAt (c : Dev nD) (q : ℕ) (hq : q < 2) (a b : Fin 1024) : F .f32 := accX m c (16 * q + 15) (last_lt q hq) (ix2 a b)
/-- Entry (q, a, b) of the second output: the Y accumulator after point 16 q + 15, at (a, b). -/
def gyAt (c : Dev nD) (q : ℕ) (hq : q < 2) (a b : Fin 1024) : F .f32 := accY m c (16 * q + 15) (last_lt q hq) (ix2 a b)

theorem gxAt_congr (c : Dev nD) {q q' : ℕ} (eq : q = q') (hq : q < 2) (hq' : q' < 2) {a a' b b' : Fin 1024}
    (ea : a = a') (eb : b = b') : gxAt m c q hq a b = gxAt m c q' hq' a' b' := by subst eq ea eb; rfl
theorem gyAt_congr (c : Dev nD) {q q' : ℕ} (eq : q = q') (hq : q < 2) (hq' : q' < 2) {a a' b b' : Fin 1024}
    (ea : a = a') (eb : b = b') : gyAt m c q hq a b = gyAt m c q' hq' a' b' := by subst eq ea eb; rfl

/-- The first output array. -/
def gx (c : Dev nD) : S2x1024x1024.Idx → F .f32 := fun j =>
  gxAt m c (j 0).val (j 0).isLt ⟨(j 1).val, (j 1).isLt⟩ ⟨(j 2).val, (j 2).isLt⟩
/-- The second output array. -/
def gy (c : Dev nD) : S2x1024x1024.Idx → F .f32 := fun j =>
  gyAt m c (j 0).val (j 0).isLt ⟨(j 1).val, (j 1).isLt⟩ ⟨(j 2).val, (j 2).isLt⟩

/-- An output block of point t, read entry by entry, is slab t / 16 of the array built from the accumulators. -/
theorem blockX (c : Dev nD) (t : Fin cfg0.N) (h15 : t.val % 16 = 15) (y : S1x1024x1024.Idx) :
    k0_pay5 (accX m c t.val t.isLt) y = gx m c (((cfg0.win 2).blk t).view.emb y) := by
  obtain ⟨-, -, -, -, e0, e1, e2, -⟩ := idx_facts t
  have hN : cfg0.N = 32 := N_0
  have ht := t.isLt
  obtain ⟨u, i, j, rfl⟩ : ∃ (u : Fin 1) (i j : Fin 1024), y = ix3 u i j := ⟨y 0, y 1, y 2, eq_ix3 y⟩
  unfold k0_pay5
  refine (shapeCast_ab_1ab_apply _ _ u i j).trans ?_
  unfold gx
  have hq : t.val / 16 < 2 := by omega
  refine (congrFun (accX_congr m c (show t.val = 16 * (t.val / 16) + 15 by omega) t.isLt (last_lt _ hq)) (ix2 i j)).trans ?_
  show gxAt m c (t.val / 16) hq i j = _
  refine gxAt_congr m c ?_ _ _ (Fin.ext ?_) (Fin.ext ?_)
  · show t.val / 16 = win0_2.index t (0 : Fin 3) * 1 + 1 * u.val
    rw [e0]; omega
  · show i.val = win0_2.index t (1 : Fin 3) * 1024 + 1 * i.val
    rw [e1]; omega
  · show j.val = win0_2.index t (2 : Fin 3) * 1024 + 1 * j.val
    rw [e2]; omega

theorem blockY (c : Dev nD) (t : Fin cfg0.N) (h15 : t.val % 16 = 15) (y : S1x1024x1024.Idx) :
    k0_pay6 (accY m c t.val t.isLt) y = gy m c (((cfg0.win 3).blk t).view.emb y) := by
  obtain ⟨-, -, -, -, -, -, -, e0, e1, e2⟩ := idx_facts t
  have hN : cfg0.N = 32 := N_0
  have ht := t.isLt
  obtain ⟨u, i, j, rfl⟩ : ∃ (u : Fin 1) (i j : Fin 1024), y = ix3 u i j := ⟨y 0, y 1, y 2, eq_ix3 y⟩
  unfold k0_pay6
  refine (shapeCast_ab_1ab_apply _ _ u i j).trans ?_
  unfold gy
  have hq : t.val / 16 < 2 := by omega
  refine (congrFun (accY_congr m c (show t.val = 16 * (t.val / 16) + 15 by omega) t.isLt (last_lt _ hq)) (ix2 i j)).trans ?_
  show gyAt m c (t.val / 16) hq i j = _
  refine gyAt_congr m c ?_ _ _ (Fin.ext ?_) (Fin.ext ?_)
  · show t.val / 16 = win0_3.index t (0 : Fin 3) * 1 + 1 * u.val
    rw [e0]; omega
  · show i.val = win0_3.index t (1 : Fin 3) * 1024 + 1 * i.val
    rw [e1]; omega
  · show j.val = win0_3.index t (2 : Fin 3) * 1024 + 1 * j.val
    rw [e2]; omega

/-- What a flushing point writes back into the first output is its block of `gx`. -/
theorem flushedX (c : Dev nD) (t : Fin cfg0.N) (hf : (cfg0.win 2).flush t = true) :
    (dats m 0 c).flushed 2 t = ((cfg0.win 2).blk t).view.read (Elt F) (gx m c) := by
  have h15 : t.val % 16 = 15 := (flush0_2 t).mp hf
  show (cfg0.win 2).cut (grid0.coords t) ((dats m 0 c).after 2 t) = _
  rw [after0_2, (out_eq m c t.val t.isLt h15).1]
  funext y
  exact blockX m c t h15 y

theorem flushedY (c : Dev nD) (t : Fin cfg0.N) (hf : (cfg0.win 3).flush t = true) :
    (dats m 0 c).flushed 3 t = ((cfg0.win 3).blk t).view.read (Elt F) (gy m c) := by
  have h15 : t.val % 16 = 15 := (flush0_3 t).mp hf
  show (cfg0.win 3).cut (grid0.coords t) ((dats m 0 c).after 3 t) = _
  rw [after0_3, (out_eq m c t.val t.isLt h15).2]
  funext y
  exact blockY m c t h15 y

/-- Membership in point t's block of the first output, axis by axis. -/
theorem mem_blkX (t : Fin cfg0.N) (i : S2x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0_0).slice (win0_2.rect t)).set ↔ _
  rw [View.set_slice_whole, Rect.mem_set_unit]
  exact Iff.rfl

theorem mem_blkY (t : Fin cfg0.N) (i : S2x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0_1).slice (win0_3.rect t)).set ↔ _
  rw [View.set_slice_whole, Rect.mem_set_unit]
  exact Iff.rfl

/-- Slab q of an output is covered by the block of point 16 q + 15, which is written back. -/
theorem coverX (i : S2x1024x1024.Idx) :
    ∃ t : Fin cfg0.N, (cfg0.win 2).flush t = true ∧ i ∈ ((cfg0.win 2).blk t).view.set := by
  have h0 : (i 0).val < 2 := (i 0).isLt
  have h1 : (i 1).val < 1024 := (i 1).isLt
  have h2 : (i 2).val < 1024 := (i 2).isLt
  refine ⟨⟨16 * (i 0).val + 15, last_lt _ h0⟩, (flush0_2 _).mpr (by show (16 * (i 0).val + 15) % 16 = 15; omega), ?_⟩
  obtain ⟨-, -, -, -, e0, e1, e2, -⟩ := idx_facts ⟨16 * (i 0).val + 15, last_lt _ h0⟩
  rw [mem_blkX]
  intro a
  match a with
  | ⟨0, _⟩ =>
    show win0_2.index _ (0 : Fin 3) * 1 ≤ (i 0).val ∧ (i 0).val < win0_2.index _ (0 : Fin 3) * 1 + 1
    rw [e0]; show (16 * (i 0).val + 15) / 16 * 1 ≤ (i 0).val ∧ (i 0).val < (16 * (i 0).val + 15) / 16 * 1 + 1; omega
  | ⟨1, _⟩ =>
    show win0_2.index _ (1 : Fin 3) * 1024 ≤ (i 1).val ∧ (i 1).val < win0_2.index _ (1 : Fin 3) * 1024 + 1024
    rw [e1]; omega
  | ⟨2, _⟩ =>
    show win0_2.index _ (2 : Fin 3) * 1024 ≤ (i 2).val ∧ (i 2).val < win0_2.index _ (2 : Fin 3) * 1024 + 1024
    rw [e2]; omega

theorem coverY (i : S2x1024x1024.Idx) :
    ∃ t : Fin cfg0.N, (cfg0.win 3).flush t = true ∧ i ∈ ((cfg0.win 3).blk t).view.set := by
  have h0 : (i 0).val < 2 := (i 0).isLt
  have h1 : (i 1).val < 1024 := (i 1).isLt
  have h2 : (i 2).val < 1024 := (i 2).isLt
  refine ⟨⟨16 * (i 0).val + 15, last_lt _ h0⟩, (flush0_3 _).mpr (by show (16 * (i 0).val + 15) % 16 = 15; omega), ?_⟩
  obtain ⟨-, -, -, -, -, -, -, e0, e1, e2⟩ := idx_facts ⟨16 * (i 0).val + 15, last_lt _ h0⟩
  rw [mem_blkY]
  intro a
  match a with
  | ⟨0, _⟩ =>
    show win0_3.index _ (0 : Fin 3) * 1 ≤ (i 0).val ∧ (i 0).val < win0_3.index _ (0 : Fin 3) * 1 + 1
    rw [e0]; show (16 * (i 0).val + 15) / 16 * 1 ≤ (i 0).val ∧ (i 0).val < (16 * (i 0).val + 15) / 16 * 1 + 1; omega
  | ⟨1, _⟩ =>
    show win0_3.index _ (1 : Fin 3) * 1024 ≤ (i 1).val ∧ (i 1).val < win0_3.index _ (1 : Fin 3) * 1024 + 1024
    rw [e1]; omega
  | ⟨2, _⟩ =>
    show win0_3.index _ (2 : Fin 3) * 1024 ≤ (i 2).val ∧ (i 2).val < win0_3.index _ (2 : Fin 3) * 1024 + 1024
    rw [e2]; omega

/-- After the region the first output array is `gx`, the second `gy`. -/
theorem finalX (c : Dev nD) : (dats m 0 c).arrAt 2 cfg0.N = gx m c :=
  (dats m 0 c).arrAt_eq_of_cover 2 (gx m c) (flushedX m c) coverX

theorem finalY (c : Dev nD) : (dats m 0 c).arrAt 3 cfg0.N = gy m c :=
  (dats m 0 c).arrAt_eq_of_cover 3 (gy m c) (flushedY m c) coverY

end Cert.KernelIdeal.Blocks

end
-- ==== Proof.Tail.lean ====
/-
  After the region: the two per-core halves are added and the result reduced.

  The host lines after the region take the two slabs of each output array, add them entry by entry, multiply the two
  sums entry by entry and add up all 1024 x 1024 products, starting from zero.  `tail A B` is that computation as one
  function of the two output arrays; the program's result is `tail` of the arrays the region leaves.  Read over the
  extended reals, it is  0 + sum over (a, b) of (A(0,a,b) + A(1,a,b)) * (B(0,a,b) + B(1,a,b)).
-/
import proofs.«177869_j2070174236952_2_alg».proof.Proof.Blocks
import Idealize.ShloMosaic.Lib.StableHlo.Run
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Chain Cert.KernelIdeal.Blocks

variable {F : FTy → Type} [FloatOps F]

/-- Slab `off` of a 2 x 1024 x 1024 array as a 1024 x 1024 matrix. -/
abbrev slab (A : S2x1024x1024.Idx → F .f32) (off : Fin 3 → Nat) (h : S2x1024x1024.Slices off S1x1024x1024) :
    S1024x1024.Idx → F .f32 :=
  shapeCast S1024x1024 (extractStridedSlice S1x1024x1024 off A h) shapeCasts_S1x1024x1024_S1024x1024

/-- The host lines after the region, as one function of the region's two output arrays. -/
def tail (A B : S2x1024x1024.Idx → F .f32) : S_.Idx → F .f32 :=
  Host.reduceAdd
    (mulf
      (addf (slab A ![0, 0, 0] slices_S2x1024x1024_S1x1024x1024_0_0_0) (slab A ![1, 0, 0] slices_S2x1024x1024_S1x1024x1024_1_0_0))
      (addf (slab B ![0, 0, 0] slices_S2x1024x1024_S1x1024x1024_0_0_0) (slab B ![1, 0, 0] slices_S2x1024x1024_S1x1024x1024_1_0_0)))
    (constant (F := F) S_ .f32 0x00000000#32) reducesTo_S1024x1024_S_d0_1 h_S_

variable (m : (ℓ : Loc nD τ sig) → Buf (Elt F) ℓ) (ρ : Dev nD → PrngReg)

/-- The program's result buffer after the host lines is `tail` of the two arrays the region leaves. -/
theorem tail_eq (c : Dev nD) :
    Pipeline.afterTail₀ cfgs (dats m) 0 (V0 m) [hostOps1] c main_v12 = tail (gx m c) (gy m c) := by
  rw [← finalX m c, ← finalY m c,
    ← Pipeline.withArrays_arr (cfgs 0).spec launch0.win.arr_inj c (V0 m c) (fun w => (dats m 0 c).arrAt w (cfgs 0).N) 2,
    ← Pipeline.withArrays_arr (cfgs 0).spec launch0.win.arr_inj c (V0 m c) (fun w => (dats m 0 c).arrAt w (cfgs 0).N) 3]
  unfold Pipeline.afterTail₀
  show StableHlo.after hostOps1 _ (Proc.devRef .tc main_v12) = _
  after_results
  rfl

/-- The result buffer is no window's array and is not scoped: the frame run states its final contents. -/
theorem v12_rest : main_v12 ∈ Pipeline.restRefs sig (cfgs 0).spec :=
  Pipeline.mem_restRefs_of main_v12 rfl (fun w => by fin_cases w <;> decide)

/-- The kernel program's run: its result at `tail` of the accumulated arrays, its arguments unchanged. -/
theorem run : θ_run defs (onTc (τ := τ) (main (F := F))) ⟨m, fun _ => 0, ρ⟩ fun r => ∀ c : Dev nD,
      r.2.mem ((c.tc : Thread nD τ).loc main_v12) = tail (gx m c) (gy m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 v12_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-! ## Over the extended reals -/

/-- A slab read at (a, b). -/
theorem slab_apply (A : S2x1024x1024.Idx → Ideal .f32) (q : Fin 2) (off : Fin 3 → Nat) (hoff : off = ![q.val, 0, 0])
    (h : S2x1024x1024.Slices off S1x1024x1024) (a b : Fin 1024) :
    slab A off h (ix2 a b) = A (ix3 q a b) := by
  subst hoff
  refine (shapeCast_1ab_ab_apply _ _ a b).trans ?_
  refine extractStridedSlice_apply _ A h _ _ fun d => ?_
  match d with
  | ⟨0, _⟩ => show q.val = q.val + 0; omega
  | ⟨1, _⟩ => show a.val = 0 + a.val; omega
  | ⟨2, _⟩ => show b.val = 0 + b.val; omega

/-- The tail over the extended reals: zero plus the sum over (a, b) of the products of the slab sums. -/
theorem tail_apply (A B : S2x1024x1024.Idx → Ideal .f32) (i : S_.Idx) :
    tail (F := Ideal) A B i
      = 0 + ∑ a : Fin 1024, ∑ b : Fin 1024,
          (A (ix3 (0 : Fin 2) a b) + A (ix3 (1 : Fin 2) a b)) * (B (ix3 (0 : Fin 2) a b) + B (ix3 (1 : Fin 2) a b)) := by
  unfold tail
  simp only [Host.reduceAdd, Ideal.hostReduceAdd_def]
  refine (Ideal.hostReduceAdd_total reducesTo_S1024x1024_S_d0_1 (fun b => b.elim0) _ _ i).trans ?_
  refine congrArg₂ (· + ·) Ideal.ofBits_zero_f32 ?_
  rw [sum_idx2]
  refine Finset.sum_congr rfl fun a _ => Finset.sum_congr rfl fun b _ => ?_
  refine (mulf_apply _ _ _).trans ?_
  refine congrArg₂ (· * ·) ((addf_apply _ _ _).trans ?_) ((addf_apply _ _ _).trans ?_)
  · exact congrArg₂ (· + ·) (slab_apply A 0 _ rfl _ a b) (slab_apply A 1 _ rfl _ a b)
  · exact congrArg₂ (· + ·) (slab_apply B 0 _ rfl _ a b) (slab_apply B 1 _ rfl _ a b)

end Cert.KernelIdeal.Tail

end
-- ==== Proof.Payload.lean ====
/-
  The body's arithmetic read entry by entry over the extended reals.

  A step's block product of a 256 x 1024 block v is the 1024 x 1024 matrix whose (a, b) entry is the sum over
  the block's 256 rows r of v(r, a) * v(r, b): the narrowing to a shorter float format is the identity on
  extended reals, and a matrix product into the zero accumulator is the plain sum.  An accumulator update adds
  that entry to the accumulator's (a, b) entry; the freshly zeroed accumulator has every entry 0.
-/
import proofs.«177869_j2070174236952_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Payload

open Cert.KernelIdeal Cert.KernelIdeal.Gen

/-- The dimension numbers of the body's two matrix products: rows contracted, columns kept. -/
abbrev gramDims : DotDims S256x1024 S256x1024 S1024x1024 := dot_S256x1024_S256x1024_S1024x1024_0_0_1_1_n_n

theorem lhs_col (j : S1024x1024.Idx) (q : gramDims.contr.Idx) : (gramDims.lhsIdx j q 1).val = (j 0).val := by
  unfold DotDims.lhsIdx
  rw [dif_neg (show ¬(1 : Fin S256x1024.rank) ∈ gramDims.lhsBatch by decide),
    dif_pos (show (1 : Fin S256x1024.rank) ∈ gramDims.lhsNonContracting by decide)]
  rfl

theorem rhs_col (j : S1024x1024.Idx) (q : gramDims.contr.Idx) : (gramDims.rhsIdx j q 1).val = (j 1).val := by
  unfold DotDims.rhsIdx
  rw [dif_neg (show ¬(1 : Fin S256x1024.rank) ∈ gramDims.rhsBatch by decide),
    dif_pos (show (1 : Fin S256x1024.rank) ∈ gramDims.rhsNonContracting by decide)]
  rfl

/-- Entry (a, b) of a block's product with itself into the zero accumulator: the sum over the block's rows. -/
theorem blockProduct_apply (v : Vec Ideal S256x1024 .f32) (a b : Fin 1024) :
    matmul (F := Ideal) gramDims none (truncf .bf16 v bitsLt_bf16_f32) (truncf .bf16 v bitsLt_bf16_f32)
        (constant S1024x1024 .f32 0x00000000#32) (ix2 a b)
      = ∑ r : Fin 256, v (ix2 r a) * v (ix2 r b) := by
  simp only [matmul]
  rw [Ideal.matmul_constant_zero_apply, ← Equiv.sum_comp (ValueIdx.contrEquiv1 gramDims 256 rfl rfl).symm]
  refine Finset.sum_congr rfl fun k _ => ?_
  have hk := ValueIdx.contrEquiv1_symm_val gramDims 256 rfl rfl k
  have el : gramDims.lhsIdx (ix2 a b) ((ValueIdx.contrEquiv1 gramDims 256 rfl rfl).symm k) = ix2 k a :=
    funext fun d => Fin.ext (by
      match d with
      | ⟨0, _⟩ => exact (gramDims.lhsIdx_val_of_single rfl _ _).trans hk
      | ⟨1, _⟩ => exact lhs_col _ _)
  have er : gramDims.rhsIdx (ix2 a b) ((ValueIdx.contrEquiv1 gramDims 256 rfl rfl).symm k) = ix2 k b :=
    funext fun d => Fin.ext (by
      match d with
      | ⟨0, _⟩ => exact (gramDims.rhsIdx_val_of_single rfl _ _).trans hk
      | ⟨1, _⟩ => exact rhs_col _ _)
  rw [el, er]
  rfl

/-- The X accumulator's update at entry (a, b). -/
theorem pay3_apply (v : Vec Ideal S256x1024 .f32) (acc : Vec Ideal S1024x1024 .f32) (a b : Fin 1024) :
    k0_pay3 (F := Ideal) v acc (ix2 a b) = acc (ix2 a b) + ∑ r : Fin 256, v (ix2 r a) * v (ix2 r b) := by
  unfold k0_pay3
  simp only [shapeCast_self]
  refine (addf_apply _ _ _).trans ?_
  exact congrArg (acc (ix2 a b) + ·) (blockProduct_apply v a b)

/-- The Y accumulator's update at entry (a, b). -/
theorem pay4_apply (v : Vec Ideal S256x1024 .f32) (acc : Vec Ideal S1024x1024 .f32) (a b : Fin 1024) :
    k0_pay4 (F := Ideal) v acc (ix2 a b) = acc (ix2 a b) + ∑ r : Fin 256, v (ix2 r a) * v (ix2 r b) := by
  unfold k0_pay4
  simp only [shapeCast_self]
  refine (addf_apply _ _ _).trans ?_
  exact congrArg (acc (ix2 a b) + ·) (blockProduct_apply v a b)

/-- The freshly zeroed accumulators hold 0 everywhere. -/
theorem pay1_apply (j : S1024x1024.Idx) : k0_pay1 (F := Ideal) j = 0 := by
  unfold k0_pay1
  simp only [shapeCast_self]
  exact Ideal.ofBits_zero_f32

theorem pay2_apply (j : S1024x1024.Idx) : k0_pay2 (F := Ideal) j = 0 := by
  unfold k0_pay2
  simp only [shapeCast_self]
  exact Ideal.ofBits_zero_f32

end Cert.KernelIdeal.Payload

end
-- ==== Proof.GramAlgebra.lean ====
/-
  The algebra that joins the two programs, over the real numbers.

  For real matrices x, y with 8192 rows and 1024 columns:

    (1)  sum over (a, b) of (sum_n x(n,a) x(n,b)) * (sum_m y(m,a) y(m,b))
           = sum over (n, m) of (sum_d x(n,d) y(m,d))^2,
         both sides being the sum over (a, b, n, m) of x(n,a) x(n,b) y(m,a) y(m,b): the squared Frobenius norm of
         x y^T is the trace of (x^T x)(y^T y);

    (2)  a sum over the 8192 rows is the sum over 32 consecutive blocks of 256 rows;

    (3)  a running sum over the 32 blocks that restarts at every 16th block holds, at block 16 q + k, the sum of
         blocks 16 q .. 16 q + k; so its values at blocks 15 and 31 add up to the sum over all 32 blocks.

  Also: the coercion of a finite real sum into the extended reals is the sum of the coercions.
-/
import Idealize.ShloMosaic.PureOps.Ideal.Laws

noncomputable section

namespace Cert.GramAlgebra

open Finset

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## (1) the trace identity -/

theorem sum_comm4 {A B N M : Type*} [Fintype A] [Fintype B] [Fintype N] [Fintype M] (f : A → B → N → M → ℝ) :
    ∑ a, ∑ b, ∑ n, ∑ m, f a b n m = ∑ n, ∑ m, ∑ a, ∑ b, f a b n m :=
  calc ∑ a, ∑ b, ∑ n, ∑ m, f a b n m
      = ∑ a, ∑ n, ∑ b, ∑ m, f a b n m := Finset.sum_congr rfl fun _ _ => Finset.sum_comm
    _ = ∑ n, ∑ a, ∑ b, ∑ m, f a b n m := Finset.sum_comm
    _ = ∑ n, ∑ a, ∑ m, ∑ b, f a b n m :=
        Finset.sum_congr rfl fun _ _ => Finset.sum_congr rfl fun _ _ => Finset.sum_comm
    _ = ∑ n, ∑ m, ∑ a, ∑ b, f a b n m := Finset.sum_congr rfl fun _ _ => Finset.sum_comm

/-- The squared Frobenius norm of x y^T is the trace of (x^T x)(y^T y). -/
theorem trace_identity {N D : Type*} [Fintype N] [Fintype D] (x y : N → D → ℝ) :
    ∑ a, ∑ b, (∑ n, x n a * x n b) * (∑ m, y m a * y m b)
      = ∑ n, ∑ m, (∑ d, x n d * y m d) * (∑ d, x n d * y m d) := by
  simp only [Fintype.sum_mul_sum]
  rw [sum_comm4]
  refine Finset.sum_congr rfl fun n _ => Finset.sum_congr rfl fun m _ =>
    Finset.sum_congr rfl fun a _ => Finset.sum_congr rfl fun b _ => ?_
  ring

/-! ## (2) rows in blocks -/

/-- Row `r` of block `t`. -/
def row (t : Fin 32) (r : Fin 256) : Fin 8192 := ⟨t.val * 256 + r.val, by omega⟩

/-- A sum over all rows, block by block. -/
theorem sum_rows (g : Fin 8192 → ℝ) : ∑ t : Fin 32, ∑ r : Fin 256, g (row t r) = ∑ n : Fin 8192, g n := by
  rw [← Fintype.sum_prod_type' (f := fun t r => g (row t r))]
  refine Fintype.sum_equiv (finProdFinEquiv : Fin 32 × Fin 256 ≃ Fin 8192) _ _ fun p => congrArg g (Fin.ext ?_)
  show p.1.val * 256 + p.2.val = p.2.val + 256 * p.1.val
  omega

/-! ## (3) the restarting running sum -/

/-- The running sum of `bs` that restarts at every multiple of 16. -/
def acc (bs : ℕ → ℝ) : ℕ → ℝ
  | 0 => bs 0
  | n + 1 => if (n + 1) % 16 = 0 then bs (n + 1) else acc bs n + bs (n + 1)

theorem acc_zero (bs : ℕ → ℝ) : acc bs 0 = bs 0 := by rw [acc]

theorem acc_succ_first (bs : ℕ → ℝ) (n : ℕ) (h : (n + 1) % 16 = 0) : acc bs (n + 1) = bs (n + 1) := by
  rw [acc, if_pos h]

theorem acc_succ_later (bs : ℕ → ℝ) (n : ℕ) (h : ¬(n + 1) % 16 = 0) : acc bs (n + 1) = acc bs n + bs (n + 1) := by
  rw [acc, if_neg h]

/-- At block 16 q + k the running sum holds blocks 16 q .. 16 q + k. -/
theorem acc_block (bs : ℕ → ℝ) (q : ℕ) : ∀ k, k < 16 → acc bs (16 * q + k) = ∑ j ∈ range (k + 1), bs (16 * q + j)
  | 0, _ => by
    rw [Finset.sum_range_one]
    cases q with
    | zero => exact acc_zero bs
    | succ q => exact acc_succ_first bs (16 * q + 15) (by omega)
  | k + 1, hk => by
    rw [Finset.sum_range_succ, ← acc_block bs q k (by omega)]
    exact acc_succ_later bs (16 * q + k) (by omega)

/-- The running sum's values at blocks 15 and 31 add up to the sum of all 32 blocks. -/
theorem acc_total (bs : ℕ → ℝ) : acc bs 15 + acc bs 31 = ∑ t : Fin 32, bs t.val := by
  have e0 : acc bs 15 = ∑ j ∈ range 16, bs j := by
    have h := acc_block bs 0 15 (by omega)
    simpa using h
  have e1 : acc bs 31 = ∑ j ∈ range 16, bs (16 + j) := by
    have h := acc_block bs 1 15 (by omega)
    simpa using h
  have e2 : ∑ t : Fin 32, bs t.val = ∑ t ∈ range (16 + 16), bs t := (Finset.sum_range fun t => bs t).symm
  rw [e0, e1, e2, Finset.sum_range_add]

/-! ## Together -/

/-- Block `t`'s contribution to entry (a, b) of x^T x; zero past the last block. -/
def blockSum (x : Fin 8192 → Fin 1024 → ℝ) (a b : Fin 1024) (t : ℕ) : ℝ :=
  if h : t < 32 then ∑ r : Fin 256, x (row ⟨t, h⟩ r) a * x (row ⟨t, h⟩ r) b else 0

theorem blockSum_of_lt (x : Fin 8192 → Fin 1024 → ℝ) (a b : Fin 1024) (t : ℕ) (h : t < 32) :
    blockSum x a b t = ∑ r : Fin 256, x (row ⟨t, h⟩ r) a * x (row ⟨t, h⟩ r) b := by
  rw [blockSum, dif_pos h]

/-- The two half-sums together are entry (a, b) of x^T x. -/
theorem gram_entry (x : Fin 8192 → Fin 1024 → ℝ) (a b : Fin 1024) :
    acc (blockSum x a b) 15 + acc (blockSum x a b) 31 = ∑ n : Fin 8192, x n a * x n b := by
  rw [acc_total, ← sum_rows fun n => x n a * x n b]
  exact Finset.sum_congr rfl fun t _ => blockSum_of_lt x a b t.val t.isLt

/-- What the kernel computes is what the reference computes, over the reals. -/
theorem gram_main (x y : Fin 8192 → Fin 1024 → ℝ) :
    ∑ a : Fin 1024, ∑ b : Fin 1024,
        (acc (blockSum x a b) 15 + acc (blockSum x a b) 31) * (acc (blockSum y a b) 15 + acc (blockSum y a b) 31)
      = ∑ n : Fin 8192, ∑ m : Fin 8192, (∑ d : Fin 1024, x n d * y m d) * (∑ d : Fin 1024, x n d * y m d) := by
  rw [← trace_identity x y]
  exact Finset.sum_congr rfl fun a _ => Finset.sum_congr rfl fun b _ => by rw [gram_entry, gram_entry]

end Cert.GramAlgebra

end
-- ==== Proof.AccValue.lean ====
/-
  The accumulators, entry by entry, as real numbers.

  When every entry of X is a real number x(n, d), entry (a, b) of the X accumulator after point n is the real
  running sum, restarting at every 16th point, of the block sums  sum_r x(256 t + r, a) x(256 t + r, b): each step
  adds the point's block sum to the real the previous step left (or to 0 at a restart), and a sum of products of
  real numbers is again a real number.  The same holds for Y.  Hence entry (q, a, b) of the first output array is
  the real running sum at point 16 q + 15, and likewise for the second output.
-/
import proofs.«177869_j2070174236952_2_alg».proof.Proof.Blocks
import proofs.«177869_j2070174236952_2_alg».proof.Proof.Payload
import proofs.«177869_j2070174236952_2_alg».proof.Proof.GramAlgebra

set_option maxRecDepth 16384

noncomputable section

open Idealize.ShloMosaic Idealize.ShloMosaic.TcCoe Idealize.SL.Sem Idealize.ShloMosaic.ValueIdx

namespace Cert.KernelIdeal.AccValue

open Cert.KernelIdeal Cert.KernelIdeal.Gen Cert.KernelIdeal.Chain Cert.KernelIdeal.Blocks Cert.GramAlgebra

variable (m : (ℓ : Loc nD τ sig) → Buf (Elt Ideal) ℓ)

/-- A real plus a sum of products of reals, computed on the extended reals, is the real result. -/
theorem step_real (v : Vec Ideal S256x1024 .f32) (s : ℝ) (a b : Fin 1024) (xa xb : Fin 256 → ℝ)
    (ha : ∀ r, v (ix2 r a) = ((xa r : ℝ) : EReal)) (hb : ∀ r, v (ix2 r b) = ((xb r : ℝ) : EReal)) :
    ((s : ℝ) : EReal) + ∑ r : Fin 256, v (ix2 r a) * v (ix2 r b) = ((s + ∑ r : Fin 256, xa r * xb r : ℝ) : EReal) := by
  rw [EReal.coe_add, coe_sum]
  refine congrArg (((s : ℝ) : EReal) + ·) (Finset.sum_congr rfl fun r _ => ?_)
  rw [ha r, hb r, EReal.coe_mul]

/-- One update of the X accumulator at entry (a, b): the real it held plus the point's block sum. -/
theorem updateX (c : Dev nD) (x : Fin 8192 → Fin 1024 → ℝ)
    (hx : ∀ n d, m ((c : Thread nD τ).loc main_arg0) (ix2 n d) = ((x n d : ℝ) : EReal)) (a b : Fin 1024)
    (t : Fin cfg0.N) (ht : t.val < 32) (accv : Vec Ideal S1024x1024 .f32) (s : ℝ) (hs : accv (ix2 a b) = ((s : ℝ) : EReal)) :
    k0_pay3 (F := Ideal) (xblk m c t) accv (ix2 a b) = ((s + blockSum x a b t.val : ℝ) : EReal) := by
  refine (Payload.pay3_apply (xblk m c t) accv a b).trans ?_
  rw [hs, blockSum_of_lt x a b t.val ht]
  exact step_real (xblk m c t) s a b (fun r => x (row ⟨t.val, ht⟩ r) a) (fun r => x (row ⟨t.val, ht⟩ r) b)
    (fun r => (xblk_apply m c t r a (by have := r.isLt; omega)).trans (hx _ _))
    (fun r => (xblk_apply m c t r b (by have := r.isLt; omega)).trans (hx _ _))

/-- One update of the Y accumulator at entry (a, b). -/
theorem updateY (c : Dev nD) (y : Fin 8192 → Fin 1024 → ℝ)
    (hy : ∀ n d, m ((c : Thread nD τ).loc main_arg1) (ix2 n d) = ((y n d : ℝ) : EReal)) (a b : Fin 1024)
    (t : Fin cfg0.N) (ht : t.val < 32) (accv : Vec Ideal S1024x1024 .f32) (s : ℝ) (hs : accv (ix2 a b) = ((s : ℝ) : EReal)) :
    k0_pay4 (F := Ideal) (yblk m c t) accv (ix2 a b) = ((s + blockSum y a b t.val : ℝ) : EReal) := by
  refine (Payload.pay4_apply (yblk m c t) accv a b).trans ?_
  rw [hs, blockSum_of_lt y a b t.val ht]
  exact step_real (yblk m c t) s a b (fun r => y (row ⟨t.val, ht⟩ r) a) (fun r => y (row ⟨t.val, ht⟩ r) b)
    (fun r => (yblk_apply m c t r a (by have := r.isLt; omega)).trans (hy _ _))
    (fun r => (yblk_apply m c t r b (by have := r.isLt; omega)).trans (hy _ _))

/-- Entry (a, b) of the X accumulator after point n is the real restarting running sum of block sums. -/
theorem accX_val (c : Dev nD) (x : Fin 8192 → Fin 1024 → ℝ)
    (hx : ∀ n d, m ((c : Thread nD τ).loc main_arg0) (ix2 n d) = ((x n d : ℝ) : EReal)) (a b : Fin 1024) :
    ∀ (n : ℕ) (h : n < cfg0.N), accX m c n h (ix2 a b) = ((acc (blockSum x a b) n : ℝ) : EReal)
  | 0, h => by
    have hN : cfg0.N = 32 := N_0
    rw [accX_zero, acc_zero]
    refine (updateX m c x hx a b ⟨0, h⟩ (by show 0 < 32; omega) (k0_pay1 (F := Ideal)) 0
      ((Payload.pay1_apply (ix2 a b)).trans EReal.coe_zero.symm)).trans ?_
    rw [zero_add]
  | n + 1, h => by
    have hN : cfg0.N = 32 := N_0
    have hlt : n + 1 < 32 := by omega
    by_cases h0 : (n + 1) % 16 = 0
    · rw [accX_succ_first m c n h h0, acc_succ_first _ n h0]
      refine (updateX m c x hx a b ⟨n + 1, h⟩ hlt (k0_pay1 (F := Ideal)) 0
        ((Payload.pay1_apply (ix2 a b)).trans EReal.coe_zero.symm)).trans ?_
      rw [zero_add]
    · rw [accX_succ_later m c n h h0, acc_succ_later _ n h0]
      exact updateX m c x hx a b ⟨n + 1, h⟩ hlt _ _ (accX_val c x hx a b n (Nat.lt_of_succ_lt h))

/-- Entry (a, b) of the Y accumulator after point n. -/
theorem accY_val (c : Dev nD) (y : Fin 8192 → Fin 1024 → ℝ)
    (hy : ∀ n d, m ((c : Thread nD τ).loc main_arg1) (ix2 n d) = ((y n d : ℝ) : EReal)) (a b : Fin 1024) :
    ∀ (n : ℕ) (h : n < cfg0.N), accY m c n h (ix2 a b) = ((acc (blockSum y a b) n : ℝ) : EReal)
  | 0, h => by
    have hN : cfg0.N = 32 := N_0
    rw [accY_zero, acc_zero]
    refine (updateY m c y hy a b ⟨0, h⟩ (by show 0 < 32; omega) (k0_pay2 (F := Ideal)) 0
      ((Payload.pay2_apply (ix2 a b)).trans EReal.coe_zero.symm)).trans ?_
    rw [zero_add]
  | n + 1, h => by
    have hN : cfg0.N = 32 := N_0
    have hlt : n + 1 < 32 := by omega
    by_cases h0 : (n + 1) % 16 = 0
    · rw [accY_succ_first m c n h h0, acc_succ_first _ n h0]
      refine (updateY m c y hy a b ⟨n + 1, h⟩ hlt (k0_pay2 (F := Ideal)) 0
        ((Payload.pay2_apply (ix2 a b)).trans EReal.coe_zero.symm)).trans ?_
      rw [zero_add]
    · rw [accY_succ_later m c n h h0, acc_succ_later _ n h0]
      exact updateY m c y hy a b ⟨n + 1, h⟩ hlt _ _ (accY_val c y hy a b n (Nat.lt_of_succ_lt h))

/-- Entry (q, a, b) of the first output array. -/
theorem gx_val (c : Dev nD) (x : Fin 8192 → Fin 1024 → ℝ)
    (hx : ∀ n d, m ((c : Thread nD τ).loc main_arg0) (ix2 n d) = ((x n d : ℝ) : EReal)) (q : Fin 2) (a b : Fin 1024) :
    gx m c (ix3 q a b) = ((acc (blockSum x a b) (16 * q.val + 15) : ℝ) : EReal) :=
  accX_val m c x hx a b (16 * q.val + 15) (last_lt q.val q.isLt)

/-- Entry (q, a, b) of the second output array. -/
theorem gy_val (c : Dev nD) (y : Fin 8192 → Fin 1024 → ℝ)
    (hy : ∀ n d, m ((c : Thread nD τ).loc main_arg1) (ix2 n d) = ((y n d : ℝ) : EReal)) (q : Fin 2) (a b : Fin 1024) :
    gy m c (ix3 q a b) = ((acc (blockSum y a b) (16 * q.val + 15) : ℝ) : EReal) :=
  accY_val m c y hy a b (16 * q.val + 15) (last_lt q.val q.isLt)

end Cert.KernelIdeal.AccValue

end
-- ==== Proof.RefRead.lean ====
/-
  The reference's result over real inputs.

  The reference forms the 8192 x 8192 matrix of inner products of the rows of X with the rows of Y, squares every
  entry and adds them all up, starting from zero.  When the entries of X and Y are the real numbers x(n, d) and
  y(m, d), every inner product is the real number  sum_d x(n,d) y(m,d), and the result is
  0 + sum over (n, m) of that real number squared.
-/
import proofs.«177869_j2070174236952_2_alg».proof.Proof.Gen.ReferenceIdeal.Read
import proofs.«177869_j2070174236952_2_alg».proof.Proof.GramAlgebra

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.GramAlgebra

/-- The inner product of row n of X with row m of Y. -/
theorem inner_val (X Y : (⟨S8192x1024, .f32⟩ : BufTy).Contents (Elt Ideal)) (x y : Fin 8192 → Fin 1024 → ℝ)
    (hx : ∀ n d, X (ix2 n d) = ((x n d : ℝ) : EReal)) (hy : ∀ n d, Y (ix2 n d) = ((y n d : ℝ) : EReal))
    (n mm : Fin 8192) :
    val_main_v0 (F := Ideal) X Y (ix2 n mm) = ((∑ d : Fin 1024, x n d * y mm d : ℝ) : EReal) := by
  rw [val_main_v0_apply, coe_sum]
  refine Finset.sum_congr rfl fun d _ => ?_
  have el : lidx_main_v0 (ix2 n mm) d = ix2 n d :=
    funext fun a => Fin.ext (by match a with | ⟨0, _⟩ => rfl | ⟨1, _⟩ => rfl)
  have er : ridx_main_v0 (ix2 n mm) d = ix2 mm d :=
    funext fun a => Fin.ext (by match a with | ⟨0, _⟩ => rfl | ⟨1, _⟩ => rfl)
  rw [el, er, hx, hy, EReal.coe_mul]

/-- The reference's result: zero plus the real sum of the squared inner products. -/
theorem result_val (X Y : (⟨S8192x1024, .f32⟩ : BufTy).Contents (Elt Ideal)) (x y : Fin 8192 → Fin 1024 → ℝ)
    (hx : ∀ n d, X (ix2 n d) = ((x n d : ℝ) : EReal)) (hy : ∀ n d, Y (ix2 n d) = ((y n d : ℝ) : EReal))
    (i : S_.Idx) :
    val_main_v2 (F := Ideal) X Y i
      = 0 + ((∑ n : Fin 8192, ∑ mm : Fin 8192,
          (∑ d : Fin 1024, x n d * y mm d) * (∑ d : Fin 1024, x n d * y mm d) : ℝ) : EReal) := by
  rw [val_main_v2_apply]
  refine congrArg₂ (· + ·) ((val_main_cst_apply _).trans Ideal.ofBits_zero_f32) ?_
  rw [sum_idx2, coe_sum]
  refine Finset.sum_congr rfl fun n _ => ?_
  rw [coe_sum]
  refine Finset.sum_congr rfl fun mm _ => ?_
  rw [val_main_v1_apply, inner_val X Y x y hx hy n mm, EReal.coe_mul]
  rfl

end Cert.ReferenceIdeal.RefValue

end
-- ==== Proof.Finite.lean ====
/-
  Finite inputs are real-valued.

  The precondition says that every entry x of either input satisfies |x| < +infinity, where |x| = max(x, -x) on
  the extended reals and the bound is the float pattern of +infinity.  Such an x is neither +infinity nor
  -infinity, so it is a real number.
-/
import proofs.«177869_j2070174236952_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic

namespace Cert.Finite

open Cert.Pre_finite_inputs

instance : Subsingleton S_.Idx := ⟨fun a b => funext fun d => d.elim0⟩

/-- The float pattern 0x7F800000 denotes +infinity. -/
theorem ofBits_inf : Ideal.ofBits .f32 0x7F800000#32 = (⊤ : EReal) := by
  simp [Ideal.ofBits, Ideal.ieee]

/-- An extended real whose absolute value is below +infinity is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One entry's comparison bit being set says the entry is real. -/
theorem real_of_bit (x : EReal) (h : Ideal.cmp .olt (max x (-x)) (Ideal.ofBits .f32 0x7F800000#32) = 1#1) :
    ∃ r : ℝ, x = (r : EReal) := by
  rw [ofBits_inf] at h
  refine real_of_abs_lt_top x ?_
  have hb : BitVec.ofBool (decide (max x (-x) < (⊤ : EReal))) = 1#1 := h
  by_contra hn
  rw [decide_eq_false hn] at hb
  exact absurd hb (by decide)

/-- Under the precondition every entry of both inputs is a real number. -/
theorem real_of_pre [Facts] (X Y : FVec Ideal S8192x1024 .f32)
    (h : fn (F := Ideal) X Y = fun _ => 1#1) :
    (∀ i, ∃ r : ℝ, X i = (r : EReal)) ∧ (∀ i, ∃ r : ℝ, Y i = (r : EReal)) := by
  have h0 := congrFun h ValueIdx.ix0
  dsimp only [fn] at h0
  obtain ⟨hx, hy⟩ := IntOp.andi_eq_one.1 h0
  constructor
  · intro i
    exact real_of_bit (X i) (Host.reduce_andi_all _ _ _ _ _ hx i)
  · intro i
    exact real_of_bit (Y i) (Host.reduce_andi_all _ _ _ _ _ hy i)

end Cert.Finite

end
-- ==== Proof.lean ====
/-
  A Gram-matrix form of the squared Frobenius norm of X Y^T, against the direct form.

  Inputs: X and Y, 8192 x 1024.  The reference forms every inner product of a row of X with a row of Y, squares it and
  sums: the squared Frobenius norm of X Y^T.  The kernel never forms that 8192 x 8192 matrix: it accumulates the two
  1024 x 1024 Gram matrices X^T X and Y^T Y, 256 rows at a time, each of its two cores over half of the rows, then adds
  the two halves and sums the entrywise product of the two Gram matrices.  Over the real numbers both are the sum over
  (a, b, n, m) of x(n,a) x(n,b) y(m,a) y(m,b).

  The identity uses distributivity, which fails at infinities on the extended reals, so the precondition is used:
  every entry of X and Y is a real number, hence so is every partial sum, and the identity is the real one.

  Modules: Pieces (what each control case of the body leaves, as payloads), Chain (the accumulators over the grid),
  Payload (the body's arithmetic read entry by entry), Blocks (blocks to whole arrays), AccValue (the accumulators as
  real running sums), Tail (the host lines after the region), RefRead (the reference over real inputs), Finite (the
  precondition read back), GramAlgebra (the real identity).
-/
import proofs.«177869_j2070174236952_2_alg».proof.Defs
import proofs.«177869_j2070174236952_2_alg».proof.Proof.Gen.Kernel
import proofs.«177869_j2070174236952_2_alg».proof.Proof.Gen.Kernel.Frame
import proofs.«177869_j2070174236952_2_alg».proof.Proof.Gen.KernelIdeal
import proofs.«177869_j2070174236952_2_alg».proof.Proof.Gen.KernelIdeal.Frame
import proofs.«177869_j2070174236952_2_alg».proof.Proof.Gen.ReferenceIdeal
import proofs.«177869_j2070174236952_2_alg».proof.Proof.Gen.ReferenceIdeal.Run
import proofs.«177869_j2070174236952_2_alg».proof.Proof.Gen.Pre_finite_inputs
import proofs.«177869_j2070174236952_2_alg».proof.Proof.Tail
import proofs.«177869_j2070174236952_2_alg».proof.Proof.AccValue
import proofs.«177869_j2070174236952_2_alg».proof.Proof.RefRead
import proofs.«177869_j2070174236952_2_alg».proof.Proof.Finite
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On finite inputs the reference's result is the kernel program's: both are zero plus the same real number. -/
theorem value_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v2 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Tail.tail (Cert.KernelIdeal.Blocks.gx m c) (Cert.KernelIdeal.Blocks.gy m c) := by
  obtain ⟨hX, hY⟩ := Cert.Finite.real_of_pre _ _ (hpre c)
  choose x hx using hX
  choose y hy using hY
  have hx' : ∀ (n : Fin 8192) (d : Fin 1024),
      m ((c.tc : Thread Cert.KernelIdeal.nD Cert.KernelIdeal.τ).loc Cert.KernelIdeal.main_arg0) (ix2 n d)
        = (((fun n d => x (ix2 n d)) n d : ℝ) : EReal) := fun n d => hx (ix2 n d)
  have hy' : ∀ (n : Fin 8192) (d : Fin 1024),
      m ((c.tc : Thread Cert.KernelIdeal.nD Cert.KernelIdeal.τ).loc Cert.KernelIdeal.main_arg1) (ix2 n d)
        = (((fun n d => y (ix2 n d)) n d : ℝ) : EReal) := fun n d => hy (ix2 n d)
  have e0 : 16 * ((0 : Fin 2) : ℕ) + 15 = 15 := rfl
  have e1 : 16 * ((1 : Fin 2) : ℕ) + 15 = 31 := rfl
  funext i
  rw [Cert.ReferenceIdeal.RefValue.result_val _ _ _ _ hx' hy' i, Cert.KernelIdeal.Tail.tail_apply,
    ← Cert.GramAlgebra.gram_main, Cert.GramAlgebra.coe_sum]
  refine congrArg ((0 : EReal) + ·) (Finset.sum_congr rfl fun a _ => ?_)
  rw [Cert.GramAlgebra.coe_sum]
  refine Finset.sum_congr rfl fun b _ => ?_
  rw [Cert.KernelIdeal.AccValue.gx_val m c _ hx' 0 a b, Cert.KernelIdeal.AccValue.gx_val m c _ hx' 1 a b,
    Cert.KernelIdeal.AccValue.gy_val m c _ hy' 0 a b, Cert.KernelIdeal.AccValue.gy_val m c _ hy' 1 a b,
    e0, e1, EReal.coe_mul, EReal.coe_add, EReal.coe_add]

/-- From memories agreeing on X and Y both programs run, and end with equal results. -/
theorem algebraic : Cert.algebraic_KernelIdeal_ReferenceIdeal := by
  intro m ρ m' ρ' hpre hagree
  refine ⟨fun c => Cert.KernelIdeal.Tail.tail (Cert.KernelIdeal.Blocks.gx m c) (Cert.KernelIdeal.Blocks.gy m c),
    Cert.KernelIdeal.Tail.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v2_eq]
  exact value_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
